-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x4096x2048 .f32) (main_arg1 : FVec F S2048x2048 .f32) (main_arg2 : FVec F S2048x1 .f32) (main_arg3 : FVec F S2048 .f32) (main_arg4 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x4096x2048 : Shape := ⟨3, ![4, 4096, 2048]⟩
abbrev S2048x2048 : Shape := ⟨2, ![2048, 2048]⟩
abbrev S2048x1 : Shape := ⟨2, ![2048, 1]⟩
abbrev S2048 : Shape := ⟨1, ![2048]⟩
abbrev S512x2048 : Shape := ⟨2, ![512, 2048]⟩
abbrev S512x1 : Shape := ⟨2, ![512, 1]⟩
abbrev S2048x512 : Shape := ⟨2, ![2048, 512]⟩
abbrev S512 : Shape := ⟨1, ![512]⟩
abbrev S1x2048 : Shape := ⟨2, ![1, 2048]⟩
abbrev S16384x2048 : Shape := ⟨2, ![16384, 2048]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048x1, .f32⟩
  | .hbm, ⟨7, _⟩ => ⟨S1x2048, .f32⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S2048x512, .bf16⟩
  | .local _ .vmem, ⟨5, _⟩ => ⟨S2048x512, .bf16⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  natLt_1_32 : 1 < 32
  bitsLt_bf16_f32 : FTy.bits .bf16 < FTy.bits .f32
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S512x1_S512x1_0_0 : ∀ a, (![0, 0] : Fin 2 → Nat) a + S512x1.size a ≤ S512x1.size a
  h_S512x1 : 0 < S512x1.numel
  shapeCasts_S2048x1_S1x2048 : S2048x1.ShapeCasts S1x2048
  shapeCasts_S4x4096x2048_S16384x2048 : S4x4096x2048.ShapeCasts S16384x2048
  shapeCasts_S2048_S1x2048 : S2048.ShapeCasts S1x2048
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x2048.size a
  hwx0_2 : ∀ i : grid0.Coords, EltTy.bits .bf16 = 32 ∨ (Rect.block (s := S2048x2048) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S16384x2048.size a
  hwx1_5 : ∀ i : grid1.Coords, EltTy.bits .f32 = 32 ∨ (Rect.block (s := S16384x2048) S512x2048.size (cc1_transform_5 i) (hinb1_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x1, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x2048, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x2048, .f32⟩
  | .hbm, ⟨46, _⟩ => ⟨S2048x2048, .i1⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S4x4096x2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.KernelRun.lean ====
/-
  The idealized kernel's run, with its result array named.

  @main is two pallas_calls among reshapes: the weight preparation, four reshapes, the matmul, one reshape. Every
  weakly fair execution terminates without a fault, and every unscoped buffer then holds the contents at the last
  segment boundary (the fold `W4` of the segments over the launch memory). Read at the result buffer this names the
  result; read at the five argument buffers it gives them back as launched.
-/
import proofs.«140495_j29678224016181_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the last
    boundary's contents and the arguments are as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.Consts.lean ====
/-
  The float literals of this kernel as real numbers.

  Both programs carry the same f32 words 2048 (the row length the means divide by), 1/2 (the ternary threshold)
  and the small positive ε added under the reciprocal square root. Each is a finite pattern, so it denotes a real;
  ε is only ever used through being a positive real.
-/
import Idealize.ShloMosaic.Lib.IdealHost
import Idealize.ShloMosaic.PureOps.Ideal.Laws
import Mathlib.Tactic

noncomputable section

namespace Cert.BitLinear

open Idealize.ShloMosaic

/-- The word of 2048.0 is the real 2048 = 2¹¹. -/
theorem ofBits_2048 : Ideal.ofBits .f32 0x45000000#32 = ((2048 : ℝ) : EReal) := by
  simp [Ideal.ofBits, Ideal.ieee, -EReal.coe_mul]; norm_num

/-- The word of 0.5 is the real 1/2. -/
theorem ofBits_half : Ideal.ofBits .f32 0x3F000000#32 = (((1 : ℝ) / 2 : ℝ) : EReal) := by
  simp [Ideal.ofBits, Ideal.ieee, -EReal.coe_mul]; norm_num

/-- The ε of both programs (the f32 nearest 10⁻⁸: 11258999 · 2⁻⁵⁰) is a positive real. -/
theorem ofBits_eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

end Cert.BitLinear

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.LibSignSelect.lean ====
/-
  The sign of a real number, as vector code spells it, and a one-bit indicator read as a number.

  A sign written with comparisons is a choice: where |n| > 0 take −1 if n < 0 and 1 otherwise, else take n itself
  (which is then 0). On a real n this is the order's sign of n. The words 0xBF800000, 0x3F800000 and 0x00000000 are
  the reals −1, 1 and 0, so the same holds with the choice made between those words.

  A comparison yields one bit. Widened to 32 bits and read as a signed integer, or read directly as an unsigned one,
  it is the same number 0 or 1, so an indicator converted to a float either way is the same extended real.

  The comparison bits themselves are read off the order: "greater" is 1 exactly when the strict inequality holds.
-/
import Idealize.ShloMosaic.PureOps.Ideal.Laws
import Mathlib.Tactic

noncomputable section

namespace Cert.SignSelect

open Idealize.ShloMosaic

/-- The word of −1.0 is the real −1. -/
theorem ofBits_neg_one : Ideal.ofBits .f32 0xBF800000#32 = ((-(1 : ℝ) : ℝ) : EReal) := by
  simp [Ideal.ofBits, Ideal.ieee, -EReal.coe_mul, -EReal.coe_neg]; norm_num

/-- The word of 1.0 is the real 1. -/
theorem ofBits_one : Ideal.ofBits .f32 0x3F800000#32 = ((1 : ℝ) : EReal) := by
  simp [Ideal.ofBits, Ideal.ieee, -EReal.coe_mul]; norm_num

/-- The word of zero is the real 0. -/
theorem ofBits_zero : Ideal.ofBits .f32 0x00000000#32 = ((0 : ℝ) : EReal) := by
  rw [Ideal.ofBits_zero_f32]; norm_cast

/-- A choice on the set bit takes the first value, on the clear bit the second. -/
theorem select_one {α : Type} (a b : α) : Scalar.select (1#1) a b = a := if_pos rfl
theorem select_zero {α : Type} (a b : α) : Scalar.select (0#1) a b = b := if_neg (by decide)

/-- The comparison bits, from the order. -/
theorem cmp_ogt_of_lt {x y : EReal} (h : y < x) : Ideal.cmp .ogt x y = 1#1 := by simp [Ideal.cmp, h]
theorem cmp_ogt_of_not_lt {x y : EReal} (h : ¬ y < x) : Ideal.cmp .ogt x y = 0#1 := by simp [Ideal.cmp, h]
theorem cmp_olt_of_lt {x y : EReal} (h : x < y) : Ideal.cmp .olt x y = 1#1 := by simp [Ideal.cmp, h]
theorem cmp_olt_of_not_lt {x y : EReal} (h : ¬ x < y) : Ideal.cmp .olt x y = 0#1 := by simp [Ideal.cmp, h]

/-- On a real r the guarded choice between −1 and 1 is the sign of r. -/
theorem sign_select (r : ℝ) :
    Scalar.select (Ideal.cmp .ogt (max (r : EReal) (-(r : EReal))) ((0 : ℝ) : EReal))
        (Scalar.select (Ideal.cmp .olt (r : EReal) ((0 : ℝ) : EReal)) ((-(1 : ℝ) : ℝ) : EReal) ((1 : ℝ) : EReal))
        (r : EReal)
      = Ideal.sign (r : EReal) := by
  rw [Ideal.sign_coe]
  rcases lt_trichotomy r 0 with h | h | h
  · have h1 : ((0 : ℝ) : EReal) < max (r : EReal) (-(r : EReal)) := by
      rw [lt_max_iff]; right; rw [← EReal.coe_neg, EReal.coe_lt_coe_iff]; linarith
    have h2 : (r : EReal) < ((0 : ℝ) : EReal) := EReal.coe_lt_coe_iff.mpr h
    rw [cmp_ogt_of_lt h1, select_one, cmp_olt_of_lt h2, select_one, sign_neg h]
    norm_num
  · subst h
    have h1 : ¬ ((0 : ℝ) : EReal) < max ((0 : ℝ) : EReal) (-((0 : ℝ) : EReal)) := by simp
    rw [cmp_ogt_of_not_lt h1, select_zero, sign_zero]
    norm_num
  · have h1 : ((0 : ℝ) : EReal) < max (r : EReal) (-(r : EReal)) := by
      rw [lt_max_iff]; left; exact EReal.coe_lt_coe_iff.mpr h
    have h2 : ¬ (r : EReal) < ((0 : ℝ) : EReal) := by rw [EReal.coe_lt_coe_iff]; linarith
    rw [cmp_ogt_of_lt h1, select_one, cmp_olt_of_not_lt h2, select_zero, sign_pos h]
    norm_num

/-- The same with the choice made between the f32 words of −1, 1 and 0, on any extended real that is a real. -/
theorem sign_select_words (n : EReal) (hn : ∃ r : ℝ, n = (r : EReal)) :
    Scalar.select (Ideal.cmp .ogt (max n (-n)) (Ideal.ofBits .f32 0x00000000#32))
        (Scalar.select (Ideal.cmp .olt n (Ideal.ofBits .f32 0x00000000#32))
          (Ideal.ofBits .f32 0xBF800000#32) (Ideal.ofBits .f32 0x3F800000#32))
        n
      = Ideal.sign n := by
  obtain ⟨r, rfl⟩ := hn
  rw [ofBits_zero, ofBits_neg_one, ofBits_one, sign_select r]

/-- A single bit widened to 32 bits and read signed is the bit read unsigned. -/
theorem bit_toInt (b : BitVec 1) : ((b.setWidth 32).toInt : ℤ) = (b.toNat : ℤ) := by
  revert b; decide

/-- So the indicator converted to a float from the widened signed word, or from the bit unsigned, is one number. -/
theorem bit_float (b : BitVec 1) : (((b.setWidth 32).toInt : ℝ) : EReal) = ((b.toNat : ℝ) : EReal) := by
  have := bit_toInt b
  exact_mod_cast congrArg (fun n : ℤ => (n : ℝ)) this

end Cert.SignSelect

end
-- ==== Proof.Spec.lean ====
/-
  The mathematics of one row, over the extended reals.

  For a row z of 2048 entries: its reciprocal root-mean-square  rinv z = (mean(z²) + ε)^(-1/2),  the normalised row
  nrm z k = z k · rinv z,  the mean absolute value  absmean z = mean |nrm z|,  and the ternary weight
  tern z k = sign(nrm z k) · [ |nrm z k| > ½ · absmean z ]  ∈ {−1, 0, 1}.

  One program spells the sign as a choice between the words of −1 and 1 guarded by |n| > 0 (else n itself, which is
  then 0), and the indicator as a one-bit comparison widened to 32 bits and read signed; the other spells them as the
  order's sign and the bit read unsigned. On a real entry these are the same number (`tern_forms`).

  An output entry is, in one program,   (∑_d a_d · t_d) · (A · R) + b   and in the other   ∑_d a_d · ((t_d · A) · R) + b,
  with a the normalised input row times the gain, t the ternary row, A its mean absolute value, R the row scale.
  Pulling the factor A · R out of the sum is valid for real numbers (it fails at infinities), so the law is stated
  for rows of reals (`join_law`), and every quantity above is a real when the row is (`rinv_real` … `tern_real`).
-/
import proofs.«140495_j29678224016181_2_alg».proof.Proof.Consts
import proofs.«140495_j29678224016181_2_alg».proof.Proof.LibRealSums
import proofs.«140495_j29678224016181_2_alg».proof.Proof.LibSignSelect

noncomputable section

open scoped BigOperators

namespace Cert.BitLinear

open Idealize.ShloMosaic Cert.RealSums Cert.SignSelect

/-- "is a real number". -/
abbrev IsReal (a : EReal) : Prop := ∃ r : ℝ, a = (r : EReal)

/-- The three literals both programs share, as their words. -/
abbrev c2048 : EReal := Ideal.ofBits .f32 0x45000000#32
abbrev ceps : EReal := Ideal.ofBits .f32 0x322BCC77#32
abbrev chalf : EReal := Ideal.ofBits .f32 0x3F000000#32

/-- The reciprocal root-mean-square of a row. -/
def rinv (z : Fin 2048 → EReal) : EReal := Ideal.rsqrt (Ideal.div (∑ k, z k * z k) c2048 + ceps)

/-- The normalised row. -/
def nrm (z : Fin 2048 → EReal) (k : Fin 2048) : EReal := z k * rinv z

/-- The mean absolute value of the normalised row. -/
def absmean (z : Fin 2048 → EReal) : EReal := Ideal.div (∑ k, max (nrm z k) (-(nrm z k))) c2048

/-- The ternary weight: the sign of the normalised entry where its magnitude exceeds half the mean magnitude. -/
def tern (z : Fin 2048 → EReal) (k : Fin 2048) : EReal :=
  Ideal.sign (nrm z k)
    * (((Ideal.cmp .ogt (max (nrm z k) (-(nrm z k))) (chalf * absmean z)).toNat : ℝ) : EReal)

/-- The same weight as the vector code spells it: ±1 chosen by comparisons, the indicator read signed at 32 bits. -/
def ternSel (z : Fin 2048 → EReal) (k : Fin 2048) : EReal :=
  Scalar.select (Ideal.cmp .ogt (max (nrm z k) (-(nrm z k))) (Ideal.ofBits .f32 0x00000000#32))
      (Scalar.select (Ideal.cmp .olt (nrm z k) (Ideal.ofBits .f32 0x00000000#32))
        (Ideal.ofBits .f32 0xBF800000#32) (Ideal.ofBits .f32 0x3F800000#32))
      (nrm z k)
    * ((((Ideal.cmp .ogt (max (nrm z k) (-(nrm z k))) (chalf * absmean z)).setWidth 32).toInt : ℝ) : EReal)

/-- The two spellings of the ternary weight agree where the normalised entry is a real. -/
theorem tern_forms (z : Fin 2048 → EReal) (k : Fin 2048) (hn : IsReal (nrm z k)) : ternSel z k = tern z k := by
  unfold ternSel tern
  rw [sign_select_words _ hn, bit_float]

/-! ## Every quantity of a real row is a real -/

theorem c2048_eq : c2048 = ((2048 : ℝ) : EReal) := ofBits_2048

/-- The reciprocal root-mean-square of a real row is a real: the mean of squares is nonnegative and ε positive. -/
theorem rinv_real (z : Fin 2048 → EReal) (hz : ∀ k, IsReal (z k)) : IsReal (rinv z) := by
  choose w hw using hz
  obtain ⟨e, he, hee⟩ := ofBits_eps
  unfold rinv
  refine isReal_rsqrt ⟨(∑ k, w k * w k) / 2048 + e, ?_, ?_⟩
  · have : 0 ≤ (∑ k, w k * w k) / 2048 :=
      div_nonneg (Finset.sum_nonneg fun k _ => mul_self_nonneg (w k)) (by norm_num)
    linarith
  · have hs : (∑ k, z k * z k) = ∑ k, ((w k * w k : ℝ) : EReal) :=
      Finset.sum_congr rfl fun k _ => by rw [hw k, EReal.coe_mul]
    show Ideal.div (∑ k, z k * z k) c2048 + ceps = _
    rw [hs, coe_finset_sum, c2048_eq, div_coe_coe _ (by norm_num : (2048 : ℝ) ≠ 0), show ceps = (e : EReal) from hee,
      EReal.coe_add]

theorem nrm_real (z : Fin 2048 → EReal) (hz : ∀ k, IsReal (z k)) (k : Fin 2048) : IsReal (nrm z k) :=
  isReal_mul (hz k) (rinv_real z hz)

theorem absmean_real (z : Fin 2048 → EReal) (hz : ∀ k, IsReal (z k)) : IsReal (absmean z) := by
  unfold absmean
  rw [c2048_eq]
  refine isReal_div (isReal_sum _ fun k => isReal_max (nrm_real z hz k) ?_) (by norm_num)
  obtain ⟨r, hr⟩ := nrm_real z hz k
  exact ⟨-r, by rw [hr, EReal.coe_neg]⟩

theorem tern_real (z : Fin 2048 → EReal) (hz : ∀ k, IsReal (z k)) (k : Fin 2048) : IsReal (tern z k) := by
  unfold tern
  refine isReal_mul ?_ ⟨_, rfl⟩
  obtain ⟨r, hr⟩ := nrm_real z hz k
  exact ⟨_, by rw [hr, Ideal.sign_coe]⟩

/-! ## The joining law -/

/-- For real numbers, a common factor A · R comes out of a finite sum of products. -/
theorem join_law {ι : Type*} [Fintype ι] (a t : ι → EReal) (A R : EReal)
    (ha : ∀ k, IsReal (a k)) (ht : ∀ k, IsReal (t k)) (hA : IsReal A) (hR : IsReal R) :
    (∑ k, a k * t k) * (A * R) = ∑ k, a k * ((t k * A) * R) := by
  choose a' ha' using ha
  choose t' ht' using ht
  obtain ⟨A', rfl⟩ := hA
  obtain ⟨R', rfl⟩ := hR
  obtain rfl : a = fun k => (a' k : EReal) := funext ha'
  obtain rfl : t = fun k => (t' k : EReal) := funext ht'
  simp only [← EReal.coe_mul, coe_finset_sum]
  rw [EReal.coe_eq_coe_iff, Finset.sum_mul]
  exact Finset.sum_congr rfl fun k _ => by ring

/-! ## One output entry, in both arrangements -/

/-- The vector code's entry: the product row·ternary, then the scale A · R, then the bias. -/
def entrySel (x g w : Fin 2048 → EReal) (R b : EReal) : EReal :=
  (∑ d, (nrm x d * g d) * ternSel w d) * (absmean w * R) + b

/-- The reference's entry: the row against the dequantised weights (t · A) · R, then the bias. -/
def entryRef (x g w : Fin 2048 → EReal) (R b : EReal) : EReal :=
  (∑ d, (nrm x d * g d) * ((tern w d * absmean w) * R)) + b

/-- The two arrangements agree on real inputs. -/
theorem entry_eq (x g w : Fin 2048 → EReal) (R b : EReal) (hx : ∀ k, IsReal (x k)) (hg : ∀ k, IsReal (g k))
    (hw : ∀ k, IsReal (w k)) (hR : IsReal R) : entrySel x g w R b = entryRef x g w R b := by
  unfold entrySel entryRef
  rw [show (∑ d, (nrm x d * g d) * ternSel w d) = ∑ d, (nrm x d * g d) * tern w d from
    Finset.sum_congr rfl fun d _ => by rw [tern_forms w d (nrm_real w hw d)]]
  rw [join_law (fun d => nrm x d * g d) (fun d => tern w d) (absmean w) R
    (fun d => isReal_mul (nrm_real x hx d) (hg d)) (fun d => tern_real w hw d) (absmean_real w hw) hR]

end Cert.BitLinear

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.Prep.lean ====
/-
  The weight-preparation body, read at an index.

  The body loads a tile of 512 rows of the weight matrix and one of 512 row scales. Row p of the tile determines
  everything it stores for that row: the normalised row (the tile times the keep-dims column of reciprocal
  root-mean-squares), the column of mean absolute values, the ternary tile written TRANSPOSED (entry (q, p) of the
  stored 2048 × 512 tile is the ternary weight q of row p), and the column  mean-abs · row scale.
-/
import proofs.«140495_j29678224016181_2_alg».proof.Proof.Gen.KernelIdeal.Skeleton
import proofs.«140495_j29678224016181_2_alg».proof.Proof.Spec
import proofs.«140495_j29678224016181_2_alg».proof.Proof.LibRowOps
import Idealize.ShloMosaic.Lib.Pipeline.Value
import Idealize.ShloMosaic.Lib.ValueIdx

noncomputable section

open scoped BigOperators

namespace Cert.KernelIdeal.Prep

open Cert.KernelIdeal Cert.KernelIdeal.Gen Cert.BitLinear
open Idealize.ShloMosaic Idealize.ShloMosaic.ValueIdx Idealize.ShloMosaic.RowOps

/-- Row p of a tile. -/
abbrev rowOf (v0 : Vec Ideal S512x2048 .f32) (p : Fin 512) : Fin 2048 → EReal := fun d => v0 (ix2 p d)

/-- A tile's row sum, as the vector reduction of the printed body: the accumulator's proof is the one the body carries. -/
theorem rowSum512 (src : FVec Ideal S512x2048 .f32) (hφ : FKind.Formats .f32)
    (hacc : (0x00000000#32 : BitVec 32) = 0x00000000#32) (p : Fin 512) :
    multiReduction .add [1] S512 src 0x00000000#32 reduces_S512x2048_S512 hφ hacc (ix1 p)
      = ∑ j : Fin 2048, src (ix2 p j) :=
  rowSum_vector src 0x00000000#32 reduces_S512x2048_S512 hφ hacc p

theorem absf_apply {s : Shape} (x : FVec Ideal s .f32) (i : s.Idx) : absf x i = max (x i) (-(x i)) := rfl

/-- The normalised tile at (p, q) is the normalised row p at q. -/
theorem pay1_at (v0 : Vec Ideal S512x2048 .f32) (p : Fin 512) (q : Fin 2048) :
    k0_pay1 (F := Ideal) v0 (ix2 p q) = nrm (rowOf v0 p) q := by
  unfold k0_pay1
  dsimp only
  rw [mulf_apply, colBcast_apply]
  show v0 (ix2 p q) * Ideal.rsqrt (Ideal.div (shapeCast S512x1 _ shapeCasts_S512_S512x1 (ix2 p (0 : Fin 1))) _ + _) = _
  rw [colCast_apply, rowSum512]
  rfl

/-- The column of mean absolute values at (p, 0) is that of row p. -/
theorem pay2_at (v0 : Vec Ideal S512x2048 .f32) (p : Fin 512) :
    k0_pay2 (F := Ideal) v0 (ix2 p (0 : Fin 1)) = absmean (rowOf v0 p) := by
  unfold k0_pay2
  dsimp only
  show Ideal.div (shapeCast S512x1 _ shapeCasts_S512_S512x1 (ix2 p (0 : Fin 1))) _ = _
  rw [colCast_apply, rowSum512]
  unfold absmean
  refine congrArg (fun s => Ideal.div s c2048) ?_
  exact Finset.sum_congr rfl fun j _ => by rw [absf_apply, pay1_at]

/-- The stored transposed tile at (q, p) is the ternary weight q of row p. -/
theorem pay3_at (v0 : Vec Ideal S512x2048 .f32) (q : Fin 2048) (p : Fin 512) :
    k0_pay3 (F := Ideal) v0 (ix2 q p) = ternSel (rowOf v0 p) q := by
  unfold k0_pay3
  dsimp only
  rw [transpose_apply [1, 0] _ transposes_S512x2048_p1_0_S2048x512 (ix2 q p) (ix2 p q)
    (fun b => by match b with | ⟨0, _⟩ => rfl | ⟨1, _⟩ => rfl)]
  rw [truncf_apply, mulf_apply, select_apply, select_apply, cmpf_apply, cmpf_apply, sitofp_apply, extui_apply,
    cmpf_apply, absf_apply, colBcast_apply, mulf_apply, pay1_at, pay2_at]
  rfl

/-- The stored scale column at (p, 0): the mean absolute value of row p times its row scale. -/
theorem pay4_at (v0 : Vec Ideal S512x2048 .f32) (v37 : Vec Ideal S512x1 .f32) (p : Fin 512) :
    k0_pay4 (F := Ideal) v0 v37 (ix2 p (0 : Fin 1)) = absmean (rowOf v0 p) * v37 (ix2 p (0 : Fin 1)) := by
  unfold k0_pay4
  rw [mulf_apply, pay2_at]

end Cert.KernelIdeal.Prep

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Dot.lean ====
/-
  The matmul body, read at an index.

  The body loads a tile of 512 rows of the flattened input, the gain row, the whole transposed ternary matrix, the
  scale row and the bias row. Entry (p, j) of what it stores is

      (∑_d (normalised row p at d · gain d) · W (d, j)) · scale j + bias j:

  the row is normalised by its reciprocal root-mean-square and multiplied by the gain, contracted against column j
  of the K-major matrix (a plain 512×2048 by 2048×2048 product into a zero accumulator), scaled and shifted. The
  changes of float format and the identity shape casts do nothing over the extended reals.
-/
import proofs.«140495_j29678224016181_2_alg».proof.Proof.Gen.KernelIdeal.Skeleton
import proofs.«140495_j29678224016181_2_alg».proof.Proof.Spec
import proofs.«140495_j29678224016181_2_alg».proof.Proof.LibRowOps
import proofs.«140495_j29678224016181_2_alg».proof.Proof.LibPlainDot
import proofs.«140495_j29678224016181_2_alg».proof.Proof.Prep
import Idealize.ShloMosaic.Lib.Pipeline.Value
import Idealize.ShloMosaic.Lib.ValueIdx

noncomputable section

open scoped BigOperators

namespace Cert.KernelIdeal.Dot

open Cert.KernelIdeal Cert.KernelIdeal.Gen Cert.BitLinear
open Idealize.ShloMosaic Idealize.ShloMosaic.ValueIdx Idealize.ShloMosaic.RowOps

/-- The printed dimension numbers are those of a plain M×K by K×N product. -/
theorem dims_plain : dot_S512x2048_S2048x2048_S512x2048_1_0_0_1_n_n = DotDims.plain 512 2048 2048 := rfl

/-- A single row spread over 512 rows reads its entry (0, d) at every (p, d). -/
theorem rowBcast_apply {α : Type} (v : S1x2048.Idx → α) (h : S1x2048.Broadcasts S512x2048) (p : Fin 512) (d : Fin 2048) :
    broadcastTo S512x2048 v h (ix2 p d) = v (ix2 (0 : Fin 1) d) := by
  refine broadcastTo_apply v h (ix2 p d) (ix2 (0 : Fin 1) d) fun ax => ?_
  match ax with
  | ⟨0, _⟩ => rfl
  | ⟨1, _⟩ => rfl

/-- The stored tile at (p, j). -/
theorem pay_at (v0 : Vec Ideal S512x2048 .f32) (v12 : Vec Ideal S1x2048 .f32) (v17 : Vec Ideal S2048x2048 .bf16)
    (v20 v24 : Vec Ideal S1x2048 .f32) (p : Fin 512) (j : Fin 2048) :
    k1_pay1 (F := Ideal) v0 v12 v17 v20 v24 (ix2 p j)
      = (∑ d : Fin 2048, (nrm (fun k => v0 (ix2 p k)) d * v12 (ix2 (0 : Fin 1) d)) * v17 (ix2 d j))
          * v20 (ix2 (0 : Fin 1) j) + v24 (ix2 (0 : Fin 1) j) := by
  unfold k1_pay1
  dsimp only
  simp only [shapeCast_self]
  rw [addf_apply, mulf_apply, rowBcast_apply, rowBcast_apply, dims_plain]
  show FloatOps.matmul (DotDims.plain 512 2048 2048) none _ _ (constant ⟨2, ![512, 2048]⟩ .f32 0x00000000#32) (ix2 p j) * _ + _ = _
  rw [PlainDot.matmul_zero_apply]
  refine congrArg (fun s => s * v20 (ix2 (0 : Fin 1) j) + v24 (ix2 (0 : Fin 1) j)) ?_
  refine Finset.sum_congr rfl fun d _ => ?_
  rw [truncf_apply, mulf_apply, rowBcast_apply, mulf_apply, colBcast_apply]
  show v0 (ix2 p d) * Ideal.rsqrt (Ideal.div (shapeCast S512x1 _ shapeCasts_S512_S512x1 (ix2 p (0 : Fin 1))) _ + _) * _ * _ = _
  rw [colCast_apply, Prep.rowSum512]
  rfl

end Cert.KernelIdeal.Dot

end
-- ==== Proof.Arrays.lean ====
/-
  The arrays the two pallas_calls leave, as whole-array functions, and each tile as a piece of them.

  The first call leaves the ternary matrix K-major — entry (d, o) is ternary weight d of weight row o — and the
  column of scales, entry (o, 0) the mean absolute value of row o times its row scale. The second leaves the
  flattened output: entry (r, j) is the normalised input row r times the gain, contracted against column j of the
  K-major matrix, times scale j, plus bias j.

  A tile is the restriction of these functions to 512 consecutive rows (of the weight matrix for the first call,
  of the flattened input for the second): tile t holds rows t·512 … t·512 + 511. Each per-tile statement takes the
  tile and the array as plain variables with the coordinate equations between them as hypotheses.
-/
import proofs.«140495_j29678224016181_2_alg».proof.Proof.Prep
import proofs.«140495_j29678224016181_2_alg».proof.Proof.Dot

noncomputable section

open scoped BigOperators

namespace Cert.KernelIdeal.Arrays

open Cert.KernelIdeal Cert.KernelIdeal.Gen Cert.BitLinear
open Idealize.ShloMosaic Idealize.ShloMosaic.ValueIdx Idealize.ShloMosaic.RowOps

/-- Row p of tile t among 2048 rows cut into 4 tiles of 512. -/
def row4 (t : Nat) (ht : t < 4) (p : Fin 512) : Fin 2048 := ⟨t * 512 + p.val, by have := p.isLt; omega⟩
/-- Row p of tile t among 16384 rows cut into 32 tiles of 512. -/
def row32 (t : Nat) (ht : t < 32) (p : Fin 512) : Fin 16384 := ⟨t * 512 + p.val, by have := p.isLt; omega⟩

/-! ## The K-major ternary matrix -/

def wq2 (Wt : S2048x2048.Idx → EReal) (d o : Fin 2048) : EReal := ternSel (fun k => Wt (ix2 o k)) d

def WQ (Wt : S2048x2048.Idx → EReal) : S2048x2048.Idx → EReal :=
  fun i => wq2 Wt ⟨(i 0).val, (i 0).isLt⟩ ⟨(i 1).val, (i 1).isLt⟩

theorem WQ_at (Wt : S2048x2048.Idx → EReal) (d o : Fin 2048) : WQ Wt (ix2 d o) = wq2 Wt d o := rfl

/-- Tile t of the first call's first result: its entry (q, p) is entry (q, t·512 + p) of the matrix. -/
theorem tile_wq (x0 : Vec Ideal S512x2048 .f32) (Wt : S2048x2048.Idx → EReal) (t : Nat) (ht : t < 4)
    (hx : ∀ (p : Fin 512) (d : Fin 2048), x0 (ix2 p d) = Wt (ix2 (row4 t ht p) d))
    (y : S2048x512.Idx) (i : S2048x2048.Idx) (hi0 : (i 0).val = (y 0).val) (hi1 : (i 1).val = t * 512 + (y 1).val) :
    k0_pay3 (F := Ideal) x0 y = WQ Wt i := by
  obtain ⟨q, p, rfl⟩ : ∃ (q : Fin 2048) (p : Fin 512), y = ix2 q p := ⟨y 0, y 1, eq_ix2 y⟩
  obtain ⟨a, b, rfl⟩ : ∃ (a b : Fin 2048), i = ix2 a b := ⟨i 0, i 1, eq_ix2 i⟩
  obtain rfl : a = q := Fin.ext hi0
  obtain rfl : b = row4 t ht p := Fin.ext hi1
  rw [Prep.pay3_at, WQ_at]
  unfold wq2
  exact congrArg (fun z => ternSel z a) (funext fun d => hx p d)

/-! ## The scale column -/

def sc1 (Wt : S2048x2048.Idx → EReal) (Rs : S2048x1.Idx → EReal) (o : Fin 2048) : EReal :=
  absmean (fun k => Wt (ix2 o k)) * Rs (ix2 o (0 : Fin 1))

def SC (Wt : S2048x2048.Idx → EReal) (Rs : S2048x1.Idx → EReal) : S2048x1.Idx → EReal :=
  fun i => sc1 Wt Rs ⟨(i 0).val, (i 0).isLt⟩

theorem SC_at (Wt : S2048x2048.Idx → EReal) (Rs : S2048x1.Idx → EReal) (o : Fin 2048) (z : Fin 1) :
    SC Wt Rs (ix2 o z) = sc1 Wt Rs o := rfl

/-- Tile t of the first call's second result: its entry (p, 0) is entry (t·512 + p, 0) of the column. -/
theorem tile_sc (x0 : Vec Ideal S512x2048 .f32) (x1 : Vec Ideal S512x1 .f32) (Wt : S2048x2048.Idx → EReal)
    (Rs : S2048x1.Idx → EReal) (t : Nat) (ht : t < 4)
    (hx : ∀ (p : Fin 512) (d : Fin 2048), x0 (ix2 p d) = Wt (ix2 (row4 t ht p) d))
    (hx1 : ∀ p : Fin 512, x1 (ix2 p (0 : Fin 1)) = Rs (ix2 (row4 t ht p) (0 : Fin 1)))
    (y : S512x1.Idx) (i : S2048x1.Idx) (hi0 : (i 0).val = t * 512 + (y 0).val) :
    k0_pay4 (F := Ideal) x0 x1 y = SC Wt Rs i := by
  obtain ⟨p, z, rfl⟩ : ∃ (p : Fin 512) (z : Fin 1), y = ix2 p z := ⟨y 0, y 1, eq_ix2 y⟩
  obtain rfl : z = 0 := Subsingleton.elim _ _
  obtain ⟨a, z', rfl⟩ : ∃ (a : Fin 2048) (z' : Fin 1), i = ix2 a z' := ⟨i 0, i 1, eq_ix2 i⟩
  obtain rfl : a = row4 t ht p := Fin.ext hi0
  rw [Prep.pay4_at, SC_at]
  unfold sc1
  rw [hx1 p, show Prep.rowOf x0 p = fun k => Wt (ix2 (row4 t ht p) k) from funext (hx p)]

/-! ## The flattened output -/

def out2 (X2 : S16384x2048.Idx → EReal) (G : S1x2048.Idx → EReal) (WT : S2048x2048.Idx → EReal)
    (SR B : S1x2048.Idx → EReal) (r : Fin 16384) (j : Fin 2048) : EReal :=
  (∑ d : Fin 2048, (nrm (fun k => X2 (ix2 r k)) d * G (ix2 (0 : Fin 1) d)) * WT (ix2 d j))
    * SR (ix2 (0 : Fin 1) j) + B (ix2 (0 : Fin 1) j)

def OUT (X2 : S16384x2048.Idx → EReal) (G : S1x2048.Idx → EReal) (WT : S2048x2048.Idx → EReal)
    (SR B : S1x2048.Idx → EReal) : S16384x2048.Idx → EReal :=
  fun i => out2 X2 G WT SR B ⟨(i 0).val, (i 0).isLt⟩ ⟨(i 1).val, (i 1).isLt⟩

theorem OUT_at (X2 : S16384x2048.Idx → EReal) (G : S1x2048.Idx → EReal) (WT : S2048x2048.Idx → EReal)
    (SR B : S1x2048.Idx → EReal) (r : Fin 16384) (j : Fin 2048) :
    OUT X2 G WT SR B (ix2 r j) = out2 X2 G WT SR B r j := rfl

/-- Tile t of the second call's result: its entry (p, j) is entry (t·512 + p, j) of the flattened output. The
    four operands the call keeps whole are read where they are. -/
theorem tile_out (x0 : Vec Ideal S512x2048 .f32) (x1 : Vec Ideal S1x2048 .f32) (x2 : Vec Ideal S2048x2048 .bf16)
    (x3 x4 : Vec Ideal S1x2048 .f32)
    (X2 : S16384x2048.Idx → EReal) (G : S1x2048.Idx → EReal) (WT : S2048x2048.Idx → EReal) (SR B : S1x2048.Idx → EReal)
    (t : Nat) (ht : t < 32)
    (hx : ∀ (p : Fin 512) (d : Fin 2048), x0 (ix2 p d) = X2 (ix2 (row32 t ht p) d))
    (h1 : ∀ d : Fin 2048, x1 (ix2 (0 : Fin 1) d) = G (ix2 (0 : Fin 1) d))
    (h2 : ∀ d j : Fin 2048, x2 (ix2 d j) = WT (ix2 d j))
    (h3 : ∀ j : Fin 2048, x3 (ix2 (0 : Fin 1) j) = SR (ix2 (0 : Fin 1) j))
    (h4 : ∀ j : Fin 2048, x4 (ix2 (0 : Fin 1) j) = B (ix2 (0 : Fin 1) j))
    (y : S512x2048.Idx) (i : S16384x2048.Idx) (hi0 : (i 0).val = t * 512 + (y 0).val) (hi1 : (i 1).val = (y 1).val) :
    k1_pay1 (F := Ideal) x0 x1 x2 x3 x4 y = OUT X2 G WT SR B i := by
  obtain ⟨p, j, rfl⟩ : ∃ (p : Fin 512) (j : Fin 2048), y = ix2 p j := ⟨y 0, y 1, eq_ix2 y⟩
  obtain ⟨a, b, rfl⟩ : ∃ (a : Fin 16384) (b : Fin 2048), i = ix2 a b := ⟨i 0, i 1, eq_ix2 i⟩
  obtain rfl : a = row32 t ht p := Fin.ext hi0
  obtain rfl : b = j := Fin.ext hi1
  rw [Dot.pay_at, OUT_at]
  unfold out2
  rw [h3 b, h4 b, show (fun k => x0 (ix2 p k)) = fun k => X2 (ix2 (row32 t ht p) k) from funext (hx p)]
  refine congrArg (fun s => s * SR (ix2 (0 : Fin 1) b) + B (ix2 (0 : Fin 1) b)) ?_
  exact Finset.sum_congr rfl fun d _ => by rw [h1 d, h2 d b]

end Cert.KernelIdeal.Arrays

end
-- ==== Proof.PrepFinal.lean ====
/-
  The arrays the first pallas_call leaves.

  Its grid has 4 points; point t reads rows t·512 … t·512 + 511 of the weight matrix and of the row scales, writes
  back block (0, t) of the K-major ternary matrix (all 2048 rows, columns t·512 …) and block (t, 0) of the scale
  column. What point t writes back is the corresponding block of the whole-array functions; the blocks of the four
  points tile each array (the point covering column, or row, r is r / 512); so after the call each array IS its
  function of the weight matrix and the row scales as the call found them.
-/
import proofs.«140495_j29678224016181_2_alg».proof.Proof.Gen.KernelIdeal.Frame
import proofs.«140495_j29678224016181_2_alg».proof.Proof.Arrays

set_option maxRecDepth 16384

noncomputable section

namespace Cert.KernelIdeal.PrepFinal

open Cert.KernelIdeal Cert.KernelIdeal.Gen Cert.KernelIdeal.Arrays
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two inputs and the scale column move down with the point, the
    ternary matrix moves right with it. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = t.val ∧ win0_3.index t (1 : Fin 2) = 0 :=
  (by decide +kernel : ∀ t : Fin grid0.N, _)

theorem lt4 (t : Fin cfg0.N) : t.val < 4 := lt_of_lt_of_eq t.isLt (show cfg0.N = 4 from N_0)

/-- The weight tile at point t is rows t·512 … of the weight matrix. -/
theorem wtile (c : Dev nD) (t : Fin cfg0.N) (p : Fin 512) (d : Fin 2048) :
    iblk0 V c 0 t (ix2 p d) = V c main_arg1 (ix2 (row4 t.val (lt4 t) p) d) := by
  obtain ⟨e00, e01, e10, e11, e20, e21, e30, e31⟩ := idx_facts t
  show V c main_arg1 (((cfg0.win 0).blk t).view.emb (ix2 p d)) = _
  refine congrArg (V c main_arg1) (funext fun a => Fin.ext ?_)
  match a with
  | ⟨0, _⟩ => show win0_0.index t (0 : Fin 2) * 512 + 1 * p.val = t.val * 512 + p.val; omega
  | ⟨1, _⟩ => show win0_0.index t (1 : Fin 2) * 2048 + 1 * d.val = d.val; omega

/-- The row-scale tile at point t is rows t·512 … of the row scales. -/
theorem stile (c : Dev nD) (t : Fin cfg0.N) (p : Fin 512) :
    iblk0 V c 1 t (ix2 p (0 : Fin 1)) = V c main_arg2 (ix2 (row4 t.val (lt4 t) p) (0 : Fin 1)) := by
  obtain ⟨e00, e01, e10, e11, e20, e21, e30, e31⟩ := idx_facts t
  show V c main_arg2 (((cfg0.win 1).blk t).view.emb (ix2 p (0 : Fin 1))) = _
  refine congrArg (V c main_arg2) (funext fun a => Fin.ext ?_)
  match a with
  | ⟨0, _⟩ => show win0_1.index t (0 : Fin 2) * 512 + 1 * p.val = t.val * 512 + p.val; omega
  | ⟨1, _⟩ => show win0_1.index t (1 : Fin 2) * 1 + 1 * 0 = 0; omega

/-! ## The K-major ternary matrix (window 2) -/

/-- What point t writes back is block t of the ternary matrix of the weight matrix. -/
theorem flushed2_eq (c : Dev nD) (t : Fin cfg0.N) :
    (dat0 V c).flushed 2 t = ((cfg0.win 2).blk t).view.read (Elt Ideal) (WQ (V c main_arg1)) := by
  show (cfg0.win 2).cut (grid0.coords t) ((dat0 V c).after 2 t) = _
  rw [after0_2]
  unfold out0_2
  rw [View.canon_unit_zero hz]
  simp only [View.ld_unit_zero (S := S512x2048) hz]
  obtain ⟨e00, e01, e10, e11, e20, e21, e30, e31⟩ := idx_facts t
  funext y
  show k0_pay3 (F := Ideal) (iblk0 V c 0 t) y = WQ (V c main_arg1) (((cfg0.win 2).blk t).view.emb y)
  refine tile_wq (iblk0 V c 0 t) (V c main_arg1) t.val (lt4 t) (fun p d => wtile V c t p d) y _ ?_ ?_
  · show win0_2.index t (0 : Fin 2) * 2048 + 1 * (y 0).val = (y 0).val; omega
  · show win0_2.index t (1 : Fin 2) * 512 + 1 * (y 1).val = t.val * 512 + (y 1).val; omega

/-- An index is in point t's block iff each coordinate is in the block's range on its axis. -/
theorem mem_blk2 (t : Fin cfg0.N) (i : S2048x2048.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v0_0).slice (win0_2.rect t)).set ↔ _
  rw [View.set_slice_whole, Rect.mem_set_unit]
  exact Iff.rfl

/-- Every index of the matrix is in the block of the point its column falls in. -/
theorem cover2 (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 4 := N_0
  obtain ⟨t, ht⟩ : ∃ t : Fin cfg0.N, t.val = (i 1).val / 512 := ⟨⟨(i 1).val / 512, by rw [hN]; omega⟩, rfl⟩
  obtain ⟨e00, e01, e10, e11, e20, e21, e30, e31⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- After the call the first result is the K-major ternary matrix of the weight matrix. -/
theorem final2 (c : Dev nD) : (dat0 V c).arrAt 2 cfg0.N = WQ (V c main_arg1) :=
  (dat0 V c).arrAt_eq_of_cover 2 (WQ (V c main_arg1)) (fun t _ => flushed2_eq V c t) cover2

/-! ## The scale column (window 3) -/

/-- What point t writes back is block t of the scale column of the weight matrix and the row scales. -/
theorem flushed3_eq (c : Dev nD) (t : Fin cfg0.N) :
    (dat0 V c).flushed 3 t = ((cfg0.win 3).blk t).view.read (Elt Ideal) (SC (V c main_arg1) (V c main_arg2)) := by
  show (cfg0.win 3).cut (grid0.coords t) ((dat0 V c).after 3 t) = _
  rw [after0_3]
  unfold out0_3
  rw [View.canon_unit_zero hz]
  simp only [View.ld_unit_zero (S := S512x2048) hz, View.ld_unit_zero (S := S512x1) hz]
  obtain ⟨e00, e01, e10, e11, e20, e21, e30, e31⟩ := idx_facts t
  funext y
  show k0_pay4 (F := Ideal) (iblk0 V c 0 t) (iblk0 V c 1 t) y
    = SC (V c main_arg1) (V c main_arg2) (((cfg0.win 3).blk t).view.emb y)
  refine tile_sc (iblk0 V c 0 t) (iblk0 V c 1 t) (V c main_arg1) (V c main_arg2) t.val (lt4 t)
    (fun p d => wtile V c t p d) (fun p => stile V c t p) y _ ?_
  show win0_3.index t (0 : Fin 2) * 512 + 1 * (y 0).val = t.val * 512 + (y 0).val; omega

theorem mem_blk3 (t : Fin cfg0.N) (i : S2048x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_1).slice (win0_3.rect t)).set ↔ _
  rw [View.set_slice_whole, Rect.mem_set_unit]
  exact Iff.rfl

/-- Every index of the column is in the block of the point its row falls in. -/
theorem cover3 (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 4 := N_0
  obtain ⟨t, ht⟩ : ∃ t : Fin cfg0.N, t.val = (i 0).val / 512 := ⟨⟨(i 0).val / 512, by rw [hN]; omega⟩, rfl⟩
  obtain ⟨e00, e01, e10, e11, e20, e21, e30, e31⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- After the call the second result is the scale column of the weight matrix and the row scales. -/
theorem final3 (c : Dev nD) : (dat0 V c).arrAt 3 cfg0.N = SC (V c main_arg1) (V c main_arg2) :=
  (dat0 V c).arrAt_eq_of_cover 3 (SC (V c main_arg1) (V c main_arg2)) (fun t _ => flushed3_eq V c t) cover3

end Cert.KernelIdeal.PrepFinal

end
-- ==== Proof.DotFinal.lean ====
/-
  The array the second pallas_call leaves.

  Its grid has 32 points; point t reads rows t·512 … t·512 + 511 of the flattened input and, whole, the gain row, the
  K-major ternary matrix, the scale row and the bias row (their index maps are constant), and writes back block
  (t, 0) of the flattened output. What point t writes back is that block of the whole-array function; the 32 blocks
  tile the 16384 rows (the point covering row r is r / 512); so after the call the array IS its function of the five
  arrays as the call found them.
-/
import proofs.«140495_j29678224016181_2_alg».proof.Proof.Gen.KernelIdeal.Frame
import proofs.«140495_j29678224016181_2_alg».proof.Proof.Arrays

set_option maxRecDepth 16384

noncomputable section

namespace Cert.KernelIdeal.DotFinal

open Cert.KernelIdeal Cert.KernelIdeal.Gen Cert.KernelIdeal.Arrays
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input tile and the output tile move down with the point, the four
    whole operands stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt32 (t : Fin cfg1.N) : t.val < 32 := lt_of_lt_of_eq t.isLt (show cfg1.N = 32 from N_1)

/-- The input tile at point t is rows t·512 … of the flattened input. -/
theorem xtile (c : Dev nD) (t : Fin cfg1.N) (p : Fin 512) (d : Fin 2048) :
    iblk1 V c 0 t (ix2 p d) = V c main_v2 (ix2 (row32 t.val (lt32 t) p) d) := by
  obtain ⟨e00, e01, e10, e11, e20, e21, e30, e31, e40, e41, e50, e51⟩ := idx_facts t
  show V c main_v2 (((cfg1.win 0).blk t).view.emb (ix2 p d)) = _
  refine congrArg (V c main_v2) (funext fun a => Fin.ext ?_)
  match a with
  | ⟨0, _⟩ => show win1_0.index t (0 : Fin 2) * 512 + 1 * p.val = t.val * 512 + p.val; omega
  | ⟨1, _⟩ => show win1_0.index t (1 : Fin 2) * 2048 + 1 * d.val = d.val; omega

/-- The gain row, whole at every point. -/
theorem gtile (c : Dev nD) (t : Fin cfg1.N) (d : Fin 2048) :
    iblk1 V c 1 t (ix2 (0 : Fin 1) d) = V c main_v3 (ix2 (0 : Fin 1) d) := by
  obtain ⟨e00, e01, e10, e11, e20, e21, e30, e31, e40, e41, e50, e51⟩ := idx_facts t
  show V c main_v3 (((cfg1.win 1).blk t).view.emb (ix2 (0 : Fin 1) d)) = _
  refine congrArg (V c main_v3) (funext fun a => Fin.ext ?_)
  match a with
  | ⟨0, _⟩ => show win1_1.index t (0 : Fin 2) * 1 + 1 * 0 = 0; omega
  | ⟨1, _⟩ => show win1_1.index t (1 : Fin 2) * 2048 + 1 * d.val = d.val; omega

/-- The K-major ternary matrix, whole at every point. -/
theorem mtile (c : Dev nD) (t : Fin cfg1.N) (d j : Fin 2048) :
    iblk1 V c 2 t (ix2 d j) = V c main_v0_0 (ix2 d j) := by
  obtain ⟨e00, e01, e10, e11, e20, e21, e30, e31, e40, e41, e50, e51⟩ := idx_facts t
  show V c main_v0_0 (((cfg1.win 2).blk t).view.emb (ix2 d j)) = _
  refine congrArg (V c main_v0_0) (funext fun a => Fin.ext ?_)
  match a with
  | ⟨0, _⟩ => show win1_2.index t (0 : Fin 2) * 2048 + 1 * d.val = d.val; omega
  | ⟨1, _⟩ => show win1_2.index t (1 : Fin 2) * 2048 + 1 * j.val = j.val; omega

/-- The scale row, whole at every point. -/
theorem stile (c : Dev nD) (t : Fin cfg1.N) (j : Fin 2048) :
    iblk1 V c 3 t (ix2 (0 : Fin 1) j) = V c main_v1 (ix2 (0 : Fin 1) j) := by
  obtain ⟨e00, e01, e10, e11, e20, e21, e30, e31, e40, e41, e50, e51⟩ := idx_facts t
  show V c main_v1 (((cfg1.win 3).blk t).view.emb (ix2 (0 : Fin 1) j)) = _
  refine congrArg (V c main_v1) (funext fun a => Fin.ext ?_)
  match a with
  | ⟨0, _⟩ => show win1_3.index t (0 : Fin 2) * 1 + 1 * 0 = 0; omega
  | ⟨1, _⟩ => show win1_3.index t (1 : Fin 2) * 2048 + 1 * j.val = j.val; omega

/-- The bias row, whole at every point. -/
theorem btile (c : Dev nD) (t : Fin cfg1.N) (j : Fin 2048) :
    iblk1 V c 4 t (ix2 (0 : Fin 1) j) = V c main_v4 (ix2 (0 : Fin 1) j) := by
  obtain ⟨e00, e01, e10, e11, e20, e21, e30, e31, e40, e41, e50, e51⟩ := idx_facts t
  show V c main_v4 (((cfg1.win 4).blk t).view.emb (ix2 (0 : Fin 1) j)) = _
  refine congrArg (V c main_v4) (funext fun a => Fin.ext ?_)
  match a with
  | ⟨0, _⟩ => show win1_4.index t (0 : Fin 2) * 1 + 1 * 0 = 0; omega
  | ⟨1, _⟩ => show win1_4.index t (1 : Fin 2) * 2048 + 1 * j.val = j.val; omega

/-- What point t writes back is block t of the flattened output of the five arrays. -/
theorem flushed5_eq (c : Dev nD) (t : Fin cfg1.N) :
    (dat1 V c).flushed 5 t = ((cfg1.win 5).blk t).view.read (Elt Ideal)
      (OUT (V c main_v2) (V c main_v3) (V c main_v0_0) (V c main_v1) (V c main_v4)) := by
  show (cfg1.win 5).cut (grid1.coords t) ((dat1 V c).after 5 t) = _
  rw [after1_5]
  unfold out1_5
  rw [View.canon_unit_zero hz]
  simp only [View.ld_unit_zero (S := S512x2048) hz, View.ld_unit_zero (S := S1x2048) hz,
    View.ld_unit_zero (S := S2048x2048) hz]
  obtain ⟨e00, e01, e10, e11, e20, e21, e30, e31, e40, e41, e50, e51⟩ := idx_facts t
  funext y
  show k1_pay1 (F := Ideal) (iblk1 V c 0 t) (iblk1 V c 1 t) (iblk1 V c 2 t) (iblk1 V c 3 t) (iblk1 V c 4 t) y
    = OUT (V c main_v2) (V c main_v3) (V c main_v0_0) (V c main_v1) (V c main_v4) (((cfg1.win 5).blk t).view.emb y)
  refine tile_out (iblk1 V c 0 t) (iblk1 V c 1 t) (iblk1 V c 2 t) (iblk1 V c 3 t) (iblk1 V c 4 t)
    (V c main_v2) (V c main_v3) (V c main_v0_0) (V c main_v1) (V c main_v4) t.val (lt32 t)
    (fun p d => xtile V c t p d) (fun d => gtile V c t d) (fun d j => mtile V c t d j) (fun j => stile V c t j)
    (fun j => btile V c t j) y _ ?_ ?_
  · show win1_5.index t (0 : Fin 2) * 512 + 1 * (y 0).val = t.val * 512 + (y 0).val; omega
  · show win1_5.index t (1 : Fin 2) * 2048 + 1 * (y 1).val = (y 1).val; omega

/-- An index is in point t's block iff each coordinate is in the block's range on its axis. -/
theorem mem_blk5 (t : Fin cfg1.N) (i : S16384x2048.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v5).slice (win1_5.rect t)).set ↔ _
  rw [View.set_slice_whole, Rect.mem_set_unit]
  exact Iff.rfl

/-- Every index of the output is in the block of the point its row falls in. -/
theorem cover5 (i : S16384x2048.Idx) :
    ∃ t : Fin cfg1.N, (cfg1.win 5).flush t = true ∧ i ∈ ((cfg1.win 5).blk t).view.set := by
  have hi0 : (i 0).val < 16384 := (i 0).isLt
  have hi1 : (i 1).val < 2048 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨e00, e01, e10, e11, e20, e21, e30, e31, e40, e41, e50, e51⟩ := idx_facts t
  refine ⟨t, flush1_5 t, ?_⟩
  rw [mem_blk5]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 2048 ≤ (i 1).val ∧ (i 1).val < win1_5.index t (1 : Fin 2) * 2048 + 2048; omega

/-- After the call the result is the flattened output of the five arrays the call found. -/
theorem final5 (c : Dev nD) :
    (dat1 V c).arrAt 5 cfg1.N = OUT (V c main_v2) (V c main_v3) (V c main_v0_0) (V c main_v1) (V c main_v4) :=
  (dat1 V c).arrAt_eq_of_cover 5 (OUT (V c main_v2) (V c main_v3) (V c main_v0_0) (V c main_v1) (V c main_v4))
    (fun t _ => flushed5_eq V c t) cover5

end Cert.KernelIdeal.DotFinal

end
-- ==== Proof.Boundary.lean ====
/-
  The contents at each segment boundary, and the kernel's result read at an index.

  After the first pallas_call its two results hold the K-major ternary matrix and the scale column of the launched
  weight matrix and row scales. The four reshapes then lay out the second call's operands: the input flattened to
  16384 rows (row b·4096 + s is row (b, s)), the gain and the bias as single rows, the scale column as a single row
  (same elements in the same order). After the second call its result holds the flattened output of those, and the
  last reshape reads it back at three indices. So entry (b, s, o) of the result is the normalised input row (b, s)
  times the gain, contracted against the ternary row o, times (mean-abs of row o · row scale o), plus bias o.
-/
import proofs.«140495_j29678224016181_2_alg».proof.Proof.Gen.KernelIdeal.Frame
import proofs.«140495_j29678224016181_2_alg».proof.Proof.PrepFinal
import proofs.«140495_j29678224016181_2_alg».proof.Proof.DotFinal
import Idealize.ShloMosaic.Lib.StableHlo.Run
import Idealize.ShloMosaic.Lib.Pipeline.Value

set_option maxRecDepth 16384

noncomputable section

open scoped BigOperators

namespace Cert.KernelIdeal.Boundary

open Cert.KernelIdeal Cert.KernelIdeal.Gen Cert.KernelIdeal.Arrays Cert.BitLinear
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The five argument arrays as launched, as functions of their indices. -/
abbrev argX (c : Dev nD) : S4x4096x2048.Idx → EReal := m ((c : Thread nD τ).loc main_arg0)
abbrev argW (c : Dev nD) : S2048x2048.Idx → EReal := m ((c : Thread nD τ).loc main_arg1)
abbrev argR (c : Dev nD) : S2048x1.Idx → EReal := m ((c : Thread nD τ).loc main_arg2)
abbrev argB (c : Dev nD) : S2048.Idx → EReal := m ((c : Thread nD τ).loc main_arg3)
abbrev argG (c : Dev nD) : S2048.Idx → EReal := m ((c : Thread nD τ).loc main_arg4)

/-! ## After the first call -/

theorem W1_wq (c : Dev nD) : W1 m ρ c (Proc.devRef .tc main_v0_0) = WQ (argW m c) :=
  (W1_arr m ρ c 2).trans (PrepFinal.final2 (V0 m ρ) c)

theorem W1_sc (c : Dev nD) : W1 m ρ c (Proc.devRef .tc main_v0_1) = SC (argW m c) (argR m c) :=
  (W1_arr m ρ c 3).trans (PrepFinal.final3 (V0 m ρ) c)

/-! ## The second call's operands, after the four reshapes -/

theorem W2_v2 (c : Dev nD) : W2 m ρ c (Proc.devRef .tc main_v2)
    = shapeCast S16384x2048 (argX m c) shapeCasts_S4x4096x2048_S16384x2048 := by
  show StableHlo.after hostOps1 (W1 m ρ c) (Proc.devRef .tc main_v2) = _
  after_results
  rw [W1_of_ne m ρ c main_arg0 (by decide)]
  rfl

theorem W2_v3 (c : Dev nD) : W2 m ρ c (Proc.devRef .tc main_v3)
    = shapeCast S1x2048 (argG m c) shapeCasts_S2048_S1x2048 := by
  show StableHlo.after hostOps1 (W1 m ρ c) (Proc.devRef .tc main_v3) = _
  after_results
  rw [W1_of_ne m ρ c main_arg4 (by decide)]
  rfl

theorem W2_v4 (c : Dev nD) : W2 m ρ c (Proc.devRef .tc main_v4)
    = shapeCast S1x2048 (argB m c) shapeCasts_S2048_S1x2048 := by
  show StableHlo.after hostOps1 (W1 m ρ c) (Proc.devRef .tc main_v4) = _
  after_results
  rw [W1_of_ne m ρ c main_arg3 (by decide)]
  rfl

theorem W2_v1 (c : Dev nD) : W2 m ρ c (Proc.devRef .tc main_v1)
    = shapeCast S1x2048 (SC (argW m c) (argR m c)) shapeCasts_S2048x1_S1x2048 := by
  show StableHlo.after hostOps1 (W1 m ρ c) (Proc.devRef .tc main_v1) = _
  after_results
  rw [W1_sc]
  rfl

theorem W2_v0_0 (c : Dev nD) : W2 m ρ c (Proc.devRef .tc main_v0_0) = WQ (argW m c) := by
  show StableHlo.after hostOps1 (W1 m ρ c) (Proc.devRef .tc main_v0_0) = _
  after_results
  exact W1_wq m ρ c

/-! ## After the second call, and the last reshape -/

theorem W3_v5 (c : Dev nD) : W3 m ρ c (Proc.devRef .tc main_v5)
    = OUT (W2 m ρ c (Proc.devRef .tc main_v2)) (W2 m ρ c (Proc.devRef .tc main_v3))
        (W2 m ρ c (Proc.devRef .tc main_v0_0)) (W2 m ρ c (Proc.devRef .tc main_v1))
        (W2 m ρ c (Proc.devRef .tc main_v4)) :=
  (W3_arr m ρ c 5).trans (DotFinal.final5 (V2 m ρ) c)

theorem W4_v6 (c : Dev nD) : W4 m ρ c (Proc.devRef .tc main_v6)
    = shapeCast S4x4096x2048 (W3 m ρ c (Proc.devRef .tc main_v5)) shapeCasts_S16384x2048_S4x4096x2048 := by
  show StableHlo.after hostOps2 (W3 m ρ c) (Proc.devRef .tc main_v6) = _
  after_results
  rfl

/-! ## The operands at an index -/

/-- Row (b, s) of the input among the 16384 flattened rows. -/
def flat (b : Fin 4) (s : Fin 4096) : Fin 16384 := ⟨b.val * 4096 + s.val, by have := b.isLt; have := s.isLt; omega⟩

theorem X2_at (c : Dev nD) (b : Fin 4) (s : Fin 4096) (k : Fin 2048) :
    W2 m ρ c (Proc.devRef .tc main_v2) (ix2 (flat b s) k) = argX m c (ix3 b s k) := by
  rw [W2_v2]
  exact shapeCast_apply _ _ (ix2 (flat b s) k) (ix3 b s k) (by
    rw [Shape.rowMajor_val_three, Shape.rowMajor_val_two]
    show (b.val * 4096 + s.val) * 2048 + k.val = (b.val * 4096 + s.val) * 2048 + k.val
    rfl)

theorem G_at (c : Dev nD) (d : Fin 2048) :
    W2 m ρ c (Proc.devRef .tc main_v3) (ix2 (0 : Fin 1) d) = argG m c (ix1 d) := by
  rw [W2_v3]
  exact shapeCast_apply _ _ (ix2 (0 : Fin 1) d) (ix1 d) (by
    rw [Shape.rowMajor_val_one, Shape.rowMajor_val_two]
    show d.val = 0 * 2048 + d.val
    omega)

theorem B_at (c : Dev nD) (o : Fin 2048) :
    W2 m ρ c (Proc.devRef .tc main_v4) (ix2 (0 : Fin 1) o) = argB m c (ix1 o) := by
  rw [W2_v4]
  exact shapeCast_apply _ _ (ix2 (0 : Fin 1) o) (ix1 o) (by
    rw [Shape.rowMajor_val_one, Shape.rowMajor_val_two]
    show o.val = 0 * 2048 + o.val
    omega)

theorem SR_at (c : Dev nD) (o : Fin 2048) :
    W2 m ρ c (Proc.devRef .tc main_v1) (ix2 (0 : Fin 1) o) = sc1 (argW m c) (argR m c) o := by
  rw [W2_v1]
  refine (shapeCast_apply _ _ (ix2 (0 : Fin 1) o) (ix2 o (0 : Fin 1)) (by
    rw [Shape.rowMajor_val_two, Shape.rowMajor_val_two]
    show o.val * 1 + 0 = 0 * 2048 + o.val
    omega)).trans ?_
  exact SC_at _ _ o 0

theorem WT_at (c : Dev nD) (d o : Fin 2048) :
    W2 m ρ c (Proc.devRef .tc main_v0_0) (ix2 d o) = wq2 (argW m c) d o := by
  rw [W2_v0_0]
  exact WQ_at _ d o

/-! ## The result at an index -/

/-- Entry (b, s, o) of the kernel's result, in the vector code's arrangement. -/
theorem value_at (c : Dev nD) (b : Fin 4) (s : Fin 4096) (o : Fin 2048) :
    W4 m ρ c (Proc.devRef .tc main_v6) (ix3 b s o)
      = entrySel (fun k => argX m c (ix3 b s k)) (fun d => argG m c (ix1 d)) (fun k => argW m c (ix2 o k))
          (argR m c (ix2 o (0 : Fin 1))) (argB m c (ix1 o)) := by
  rw [W4_v6]
  refine (shapeCast_apply _ _ (ix3 b s o) (ix2 (flat b s) o) (by
    rw [Shape.rowMajor_val_three, Shape.rowMajor_val_two]
    show (b.val * 4096 + s.val) * 2048 + o.val = (b.val * 4096 + s.val) * 2048 + o.val
    rfl)).trans ?_
  rw [W3_v5, OUT_at]
  unfold out2 entrySel
  rw [SR_at, B_at, show (fun k => W2 m ρ c (Proc.devRef .tc main_v2) (ix2 (flat b s) k)) = fun k => argX m c (ix3 b s k)
    from funext (X2_at m ρ c b s)]
  refine congrArg (fun t => t * sc1 (argW m c) (argR m c) o + argB m c (ix1 o)) ?_
  exact Finset.sum_congr rfl fun d _ => by rw [G_at, WT_at]; rfl

end Cert.KernelIdeal.Boundary

end
-- ==== Proof.RefValue.lean ====
/-
  The reference, read at an index.

  Every stage of the reference's run is read at explicit coordinates. For the input: the sum of squares of row
  (b, s), its reciprocal root-mean-square, the normalised row, the row times the gain. For the weight matrix: the
  same normalisation of row o, the mean absolute value of the normalised row, the ternary weight (the order's sign
  times the indicator of exceeding half the mean), the dequantised weight (ternary · mean-abs) · row scale. The
  result at (b, s, o) is the contraction of the two rows plus the bias: the reference's arrangement of an entry.
-/
import proofs.«140495_j29678224016181_2_alg».proof.Proof.Gen.ReferenceIdeal.Read
import proofs.«140495_j29678224016181_2_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Cert.BitLinear
open Idealize.ShloMosaic Idealize.ShloMosaic.ValueIdx

/-! ## The index functions of the layout stages, at coordinates -/

theorem i1 (b : Fin 4) (s : Fin 4096) (k : Fin 2048) : idx_main_v1 (ix2 b s) k = ix3 b s k :=
  funext fun a => Fin.ext (by match a with | ⟨0, _⟩ => rfl | ⟨1, _⟩ => rfl | ⟨2, _⟩ => rfl)
theorem i2 (b : Fin 4) (s : Fin 4096) (z : Fin 1) : idx_main_v2 (ix3 b s z) = ix2 b s :=
  funext fun a => Fin.ext (by match a with | ⟨0, _⟩ => rfl | ⟨1, _⟩ => rfl)
theorem i8 (b : Fin 4) (s : Fin 4096) (k : Fin 2048) : idx_main_v8 (ix3 b s k) = ix3 b s (0 : Fin 1) :=
  funext fun a => Fin.ext (by match a with | ⟨0, _⟩ => rfl | ⟨1, _⟩ => rfl | ⟨2, _⟩ => rfl)
theorem i10 (a b : Fin 1) (k : Fin 2048) : idx_main_v10 (ix3 a b k) = ix1 k :=
  funext fun a => Fin.ext (by match a with | ⟨0, _⟩ => rfl)
theorem i11 (b : Fin 4) (s : Fin 4096) (k : Fin 2048) : idx_main_v11 (ix3 b s k) = ix3 (0 : Fin 1) (0 : Fin 1) k :=
  funext fun a => Fin.ext (by match a with | ⟨0, _⟩ => rfl | ⟨1, _⟩ => rfl | ⟨2, _⟩ => rfl)
theorem i14 (o k : Fin 2048) : idx_main_v14 (ix1 o) k = ix2 o k :=
  funext fun a => Fin.ext (by match a with | ⟨0, _⟩ => rfl | ⟨1, _⟩ => rfl)
theorem i15 (o : Fin 2048) (z : Fin 1) : idx_main_v15 (ix2 o z) = ix1 o :=
  funext fun a => Fin.ext (by match a with | ⟨0, _⟩ => rfl)
theorem i21 (o k : Fin 2048) : idx_main_v21 (ix2 o k) = ix2 o (0 : Fin 1) :=
  funext fun a => Fin.ext (by match a with | ⟨0, _⟩ => rfl | ⟨1, _⟩ => rfl)
theorem i24 (o k : Fin 2048) : idx_main_v24 (ix1 o) k = ix2 o k :=
  funext fun a => Fin.ext (by match a with | ⟨0, _⟩ => rfl | ⟨1, _⟩ => rfl)
theorem i25 (o : Fin 2048) (z : Fin 1) : idx_main_v25 (ix2 o z) = ix1 o :=
  funext fun a => Fin.ext (by match a with | ⟨0, _⟩ => rfl)
theorem i31 (o k : Fin 2048) : idx_main_v31 (ix2 o k) = ix2 o (0 : Fin 1) :=
  funext fun a => Fin.ext (by match a with | ⟨0, _⟩ => rfl | ⟨1, _⟩ => rfl)
theorem i36 (o k : Fin 2048) : idx_main_v36 (ix2 o k) = ix2 o (0 : Fin 1) :=
  funext fun a => Fin.ext (by match a with | ⟨0, _⟩ => rfl | ⟨1, _⟩ => rfl)
theorem i38 (o k : Fin 2048) : idx_main_v38 (ix2 o k) = ix2 o (0 : Fin 1) :=
  funext fun a => Fin.ext (by match a with | ⟨0, _⟩ => rfl | ⟨1, _⟩ => rfl)
theorem il40 (b : Fin 4) (s : Fin 4096) (o k : Fin 2048) : lidx_main_v40 (ix3 b s o) k = ix3 b s k :=
  funext fun a => Fin.ext (by match a with | ⟨0, _⟩ => rfl | ⟨1, _⟩ => rfl | ⟨2, _⟩ => rfl)
theorem ir40 (b : Fin 4) (s : Fin 4096) (o k : Fin 2048) : ridx_main_v40 (ix3 b s o) k = ix2 o k :=
  funext fun a => Fin.ext (by match a with | ⟨0, _⟩ => rfl | ⟨1, _⟩ => rfl)
theorem i41 (a b : Fin 1) (k : Fin 2048) : idx_main_v41 (ix3 a b k) = ix1 k :=
  funext fun a => Fin.ext (by match a with | ⟨0, _⟩ => rfl)
theorem i42 (b : Fin 4) (s : Fin 4096) (o : Fin 2048) : idx_main_v42 (ix3 b s o) = ix3 (0 : Fin 1) (0 : Fin 1) o :=
  funext fun a => Fin.ext (by match a with | ⟨0, _⟩ => rfl | ⟨1, _⟩ => rfl | ⟨2, _⟩ => rfl)

variable (x0 : (⟨S4x4096x2048, .f32⟩ : BufTy).Contents (Elt Ideal)) (x1 : (⟨S2048x2048, .f32⟩ : BufTy).Contents (Elt Ideal))
  (x2 : (⟨S2048x1, .f32⟩ : BufTy).Contents (Elt Ideal)) (x3 x4 : (⟨S2048, .f32⟩ : BufTy).Contents (Elt Ideal))

/-- Row (b, s) of the input, row o of the weight matrix. -/
abbrev xrow (b : Fin 4) (s : Fin 4096) : Fin 2048 → EReal := fun k => x0 (ix3 b s k)
abbrev wrow (o : Fin 2048) : Fin 2048 → EReal := fun k => x1 (ix2 o k)

/-! ## The input side -/

theorem v1_at (b : Fin 4) (s : Fin 4096) :
    val_main_v1 (F := Ideal) x0 (ix2 b s) = ∑ k, xrow x0 b s k * xrow x0 b s k := by
  rw [val_main_v1_apply, val_main_cst_apply]
  show Ideal.ofBits .f32 0x00000000#32 + _ = _
  rw [Ideal.ofBits_zero_f32, zero_add]
  exact Finset.sum_congr rfl fun k _ => by rw [val_main_v0_apply, i1]; rfl

theorem v7_at (b : Fin 4) (s : Fin 4096) (z : Fin 1) :
    val_main_v7 (F := Ideal) x0 (ix3 b s z) = rinv (xrow x0 b s) := by
  rw [val_main_v7_apply, val_main_v6_apply, val_main_v4_apply, val_main_v2_apply, i2, v1_at, val_main_v3_apply,
    val_main_cst_0_apply, val_main_v5_apply, val_main_cst_1_apply]
  rfl

theorem v12_at (b : Fin 4) (s : Fin 4096) (k : Fin 2048) :
    val_main_v12 (F := Ideal) x0 x4 (ix3 b s k) = nrm (xrow x0 b s) k * x4 (ix1 k) := by
  rw [val_main_v12_apply, val_main_v9_apply, val_main_v8_apply, i8, v7_at, val_main_v11_apply, i11,
    val_main_v10_apply, i10]
  rfl

/-! ## The weight side -/

theorem v14_at (o : Fin 2048) : val_main_v14 (F := Ideal) x1 (ix1 o) = ∑ k, wrow x1 o k * wrow x1 o k := by
  rw [val_main_v14_apply, val_main_cst_2_apply]
  show Ideal.ofBits .f32 0x00000000#32 + _ = _
  rw [Ideal.ofBits_zero_f32, zero_add]
  exact Finset.sum_congr rfl fun k _ => by rw [val_main_v13_apply, i14]; rfl

theorem v20_at (o : Fin 2048) (z : Fin 1) : val_main_v20 (F := Ideal) x1 (ix2 o z) = rinv (wrow x1 o) := by
  rw [val_main_v20_apply, val_main_v19_apply, val_main_v17_apply, val_main_v15_apply, i15, v14_at,
    val_main_v16_apply, val_main_cst_3_apply, val_main_v18_apply, val_main_cst_4_apply]
  rfl

theorem v22_at (o k : Fin 2048) : val_main_v22 (F := Ideal) x1 (ix2 o k) = nrm (wrow x1 o) k := by
  rw [val_main_v22_apply, val_main_v21_apply, i21, v20_at]
  rfl

theorem v24_at (o : Fin 2048) :
    val_main_v24 (F := Ideal) x1 (ix1 o) = ∑ k, max (nrm (wrow x1 o) k) (-(nrm (wrow x1 o) k)) := by
  rw [val_main_v24_apply, val_main_cst_5_apply]
  show Ideal.ofBits .f32 0x00000000#32 + _ = _
  rw [Ideal.ofBits_zero_f32, zero_add]
  exact Finset.sum_congr rfl fun k _ => by rw [val_main_v23_apply, i24, v22_at]; rfl

theorem v27_at (o : Fin 2048) (z : Fin 1) : val_main_v27 (F := Ideal) x1 (ix2 o z) = absmean (wrow x1 o) := by
  rw [val_main_v27_apply, val_main_v25_apply, i25, v24_at, val_main_v26_apply, val_main_cst_6_apply]
  rfl

theorem v35_at (o k : Fin 2048) : val_main_v35 (F := Ideal) x1 (ix2 o k) = tern (wrow x1 o) k := by
  rw [val_main_v35_apply, val_main_v34_apply, val_main_v33_apply, val_main_v32_apply, val_main_v28_apply,
    val_main_v31_apply, i31, val_main_v30_apply, val_main_v29_apply, val_main_cst_7_apply, v27_at, v22_at]
  rfl

theorem v39_at (o k : Fin 2048) :
    val_main_v39 (F := Ideal) x1 x2 (ix2 o k)
      = (tern (wrow x1 o) k * absmean (wrow x1 o)) * x2 (ix2 o (0 : Fin 1)) := by
  rw [val_main_v39_apply, val_main_v37_apply, v35_at, val_main_v36_apply, i36, v27_at, val_main_v38_apply, i38]
  rfl

/-! ## The result -/

/-- Entry (b, s, o) of the reference's result, in the reference's arrangement. -/
theorem value_at (b : Fin 4) (s : Fin 4096) (o : Fin 2048) :
    val_main_v43 (F := Ideal) x0 x1 x2 x3 x4 (ix3 b s o)
      = entryRef (xrow x0 b s) (fun d => x4 (ix1 d)) (wrow x1 o) (x2 (ix2 o (0 : Fin 1))) (x3 (ix1 o)) := by
  rw [val_main_v43_apply, val_main_v40_apply, val_main_v42_apply, i42, val_main_v41_apply, i41]
  unfold entryRef
  refine congrArg (fun t => t + x3 (ix1 o)) ?_
  exact Finset.sum_congr rfl fun k _ => by rw [il40, ir40, v12_at, v39_at]

end Cert.ReferenceIdeal.RefValue

end
-- ==== Proof.Finite.lean ====
/-
  From the precondition to real entries.

  The precondition is the conjunction, over the five arguments, of  all(|a| < +inf).  An extended real whose
  absolute value max(x, −x) lies strictly below +inf is neither infinity, so it is a real number. A conjunction of
  one-bit words that is 1 has every word 1, and an and-reduction over all axes that is 1 met a 1 at every index.
-/
import proofs.«140495_j29678224016181_2_alg».proof.Proof.Gen.Pre_finite_inputs
import proofs.«140495_j29678224016181_2_alg».proof.Proof.Spec
import Idealize.ShloMosaic.Lib.ReduceAll
import Idealize.ShloMosaic.Lib.Pipeline.Value
import Idealize.ShloMosaic.Lib.ValueIdx

noncomputable section

namespace Cert.Pre_finite_inputs.Finite

open Cert.Pre_finite_inputs Cert.BitLinear Cert.SignSelect
open Idealize.ShloMosaic Idealize.ShloMosaic.ValueIdx

instance : Subsingleton S_.Idx := ⟨fun a b => funext fun d => d.elim0⟩

/-- The word 0x7F800000 is +inf. -/
theorem ofBits_inf : Ideal.ofBits .f32 0x7F800000#32 = (⊤ : EReal) := by simp [Ideal.ofBits, Ideal.ieee]

/-- An extended real whose absolute value compares strictly below +inf is a real. -/
theorem real_of_abs_lt (x : EReal) (h : Ideal.cmp .olt (max x (-x)) (Ideal.ofBits .f32 0x7F800000#32) = 1#1) :
    IsReal x := by
  rw [ofBits_inf] at h
  by_cases hlt : max x (-x) < (⊤ : EReal)
  · induction x using EReal.rec with
    | bot => exact absurd hlt (by simp)
    | coe r => exact ⟨r, rfl⟩
    | top => exact absurd hlt (by simp)
  · rw [cmp_olt_of_not_lt hlt] at h
    exact absurd h (by decide)

/-- One conjunct of the precondition: the all-reduction of |a| < +inf being 1 makes every entry of a a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf (F := Ideal) a) (broadcastInDim s ![] hb (constant (F := Ideal) S_ .f32 0x7F800000#32)))
          (constantI S_ 1 1#1) hr hu ix0 = 1#1)
    (i : s.Idx) : IsReal (a i) := by
  have hi := Host.reduce_andi_all _ _ hr hu ix0 e i
  refine real_of_abs_lt (a i) ?_
  have hc : broadcastInDim s ![] hb (constant (F := Ideal) S_ .f32 0x7F800000#32) i
      = Ideal.ofBits .f32 0x7F800000#32 :=
    broadcastInDim_apply ![] hb _ i ix0 (fun d => d.elim0)
  rw [← hc]
  exact hi

variable [Facts]

/-- Under the precondition every entry of every argument is a real. -/
theorem all_real (a0 : FVec Ideal S4x4096x2048 .f32) (a1 : FVec Ideal S2048x2048 .f32) (a2 : FVec Ideal S2048x1 .f32)
    (a3 a4 : FVec Ideal S2048 .f32) (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4⟩

end Cert.Pre_finite_inputs.Finite

end
-- ==== Proof.Bridge.lean ====
/-
  The two results are one array.

  At every index (b, s, o) the kernel's result is the vector code's arrangement of an entry and the reference's
  result is the reference's arrangement, of the same rows of the same arguments. Under the precondition every
  entry of every argument is a real, and on reals the two arrangements agree.
-/
import proofs.«140495_j29678224016181_2_alg».proof.Proof.Boundary
import proofs.«140495_j29678224016181_2_alg».proof.Proof.RefValue
import proofs.«140495_j29678224016181_2_alg».proof.Proof.Finite

set_option maxRecDepth 16384

noncomputable section

namespace Cert.Proof.Bridge

open Cert.KernelIdeal Cert.KernelIdeal.Gen Cert.KernelIdeal.Boundary Cert.BitLinear
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Under the precondition the kernel's result array is the reference's last stage of the launched arguments. -/
theorem result_eq (c : Dev nD)
    (hpre : Cert.Pre_finite_inputs.fn (F := Ideal) (argX m c) (argW m c) (argR m c) (argB m c) (argG m c) = fun _ => 1#1) :
    (W4 m ρ c (Proc.devRef .tc main_v6) : S4x4096x2048.Idx → EReal)
      = Cert.ReferenceIdeal.Read.val_main_v43 (F := Ideal) (argX m c) (argW m c) (argR m c) (argB m c) (argG m c) := by
  obtain ⟨r0, r1, r2, r3, r4⟩ := Cert.Pre_finite_inputs.Finite.all_real _ _ _ _ _ hpre
  funext i
  obtain ⟨b, s, o, rfl⟩ : ∃ (b : Fin 4) (s : Fin 4096) (o : Fin 2048), i = ix3 b s o := ⟨i 0, i 1, i 2, eq_ix3 i⟩
  rw [Boundary.value_at, Cert.ReferenceIdeal.RefValue.value_at]
  exact entry_eq _ _ _ _ _ (fun k => r0 _) (fun k => r4 _) (fun k => r1 _) (r2 _)

end Cert.Proof.Bridge

end
-- ==== Proof.lean ====
/-
  BitLinear: an RMS-normalised input against a ternary-quantised, RMS-normalised weight matrix.

  The kernel is two pallas_calls. The first takes the weight matrix 512 rows at a time, normalises each row by its
  reciprocal root-mean-square, takes the mean absolute value A of the normalised row, and stores the ternary weights
  sign(n) · [|n| > A/2] transposed (K-major) beside the per-row scale A · row_scale. The second takes the flattened
  input 512 rows at a time, normalises each row, multiplies by the gain, contracts against the whole K-major ternary
  matrix, multiplies column j by scale j and adds bias j. The reference normalises both, forms the dequantised matrix
  (ternary · A) · row_scale, contracts, and adds the bias.

  Over the extended reals a change of float format is the identity, a tpu.matmul into a zero accumulator and the
  host's dot_general are the same sum, and so are a vector reduction and the host's reduce. The sign is spelt in the
  kernel as a choice between the words of −1 and 1 by the sign of n, kept only where |n| > 0 (the sanctioned reading
  of the sign-bit window; its statement is the preserves conjunct), and in the reference as the order's sign: the
  same number on a real n. What remains between the two programs is where the factor A · row_scale multiplies —
  outside the contraction in the kernel, inside it in the reference — and that is distributivity, valid on real
  numbers. The precondition makes every input a real; the mean of squares plus the positive ε is then a positive
  real, so every normalised entry, every mean and every ternary weight is a real, and the two results agree entry
  by entry.

  The three frames: the two kernel programs' are the generated frame certificates; the reference's is its generated
  run with the result forgotten.
-/
import proofs.«140495_j29678224016181_2_alg».proof.Defs
import proofs.«140495_j29678224016181_2_alg».proof.Proof.Gen.Kernel
import proofs.«140495_j29678224016181_2_alg».proof.Proof.Gen.Kernel.Skeleton
import proofs.«140495_j29678224016181_2_alg».proof.Proof.Gen.Kernel.Launch
import proofs.«140495_j29678224016181_2_alg».proof.Proof.Gen.Kernel.Points
import proofs.«140495_j29678224016181_2_alg».proof.Proof.Gen.Kernel.Frame
import proofs.«140495_j29678224016181_2_alg».proof.Proof.Gen.KernelIdeal
import proofs.«140495_j29678224016181_2_alg».proof.Proof.Gen.KernelIdeal.Skeleton
import proofs.«140495_j29678224016181_2_alg».proof.Proof.Gen.KernelIdeal.Launch
import proofs.«140495_j29678224016181_2_alg».proof.Proof.Gen.KernelIdeal.Points
import proofs.«140495_j29678224016181_2_alg».proof.Proof.Gen.KernelIdeal.Frame
import proofs.«140495_j29678224016181_2_alg».proof.Proof.Gen.ReferenceIdeal
import proofs.«140495_j29678224016181_2_alg».proof.Proof.Gen.ReferenceIdeal.Run
import proofs.«140495_j29678224016181_2_alg».proof.Proof.Gen.ReferenceIdeal.Read
import proofs.«140495_j29678224016181_2_alg».proof.Proof.Gen.Pre_finite_inputs
import proofs.«140495_j29678224016181_2_alg».proof.Proof.KernelRun
import proofs.«140495_j29678224016181_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: 1.0 carrying the sign bit of a word is −1 or 1 by the sign of the value it denotes. -/
theorem preserves : Cert.preserves_Kernel_KernelIdeal :=
  IdealRules.sign_bit.statement Cert.KernelIdeal.S512x2048 .f32

/-- Both idealized programs run; the kernel's result array is the reference's last stage of the same arguments. -/
theorem algebraic : Cert.algebraic_KernelIdeal_ReferenceIdeal := by
  intro m ρ m' ρ' hpre hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Proof.Bridge.result_eq m ρ c (hpre c)), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v43_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
